-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008x1 .f32) (main_arg3 : FVec F S11008x1 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S8192x4096 : Shape := ⟨2, ![8192, 4096]⟩
abbrev S8192x11008 : Shape := ⟨2, ![8192, 11008]⟩
abbrev S512x4096 : Shape := ⟨2, ![512, 4096]⟩
abbrev S256x4096 : Shape := ⟨2, ![256, 4096]⟩
abbrev S256x1 : Shape := ⟨2, ![256, 1]⟩
abbrev S256 : Shape := ⟨1, ![256]⟩
abbrev S512x256 : Shape := ⟨2, ![512, 256]⟩
abbrev S1x256 : Shape := ⟨2, ![1, 256]⟩
abbrev S4x2048x11008 : Shape := ⟨3, ![4, 2048, 11008]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S8192x4096, .f32⟩
  | .hbm, ⟨6, _⟩ => ⟨S8192x11008, .f32⟩
  | .hbm, ⟨7, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256, .f32⟩
  | .local _ .vmem, ⟨9, _⟩ => ⟨S256, .f32⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x11008.size a
  hwx0_5 : ∀ i : grid0.Coords, EltTy.bits .f32 = 32 ∨ (Rect.block (s := S8192x11008) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S4x2048x11008, .f32⟩
  | .hbm, ⟨11, _⟩ => ⟨S1x1x11008, .f32⟩
  | .hbm, ⟨12, _⟩ => ⟨S4x2048x11008, .f32⟩
  | .hbm, ⟨13, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, stated once and free of either program.

  A linear layer whose weight is stored as integer codes: row `o` of the weight is the codes of row `o`, read as
  signed integers, shifted by that row's zero point and scaled by that row's scale,
      w (o, i) = (code (o, i) − zp o) · scale o ,
  and the layer's output at row `r` and channel `o` is the inner product of row `r` of the input with row `o` of the
  weight, plus the channel's bias:
      y (r, o) = ∑ i, x (r, i) · w (o, i) + bias o .
  On the extended reals every operation is the exact one, so this is one expression, with no rounding anywhere.

  The input comes as a batch of 4 sequences of 2048 rows; flattened it has 8192 rows, row `r = 2048·b + s`. The same
  function is written here twice: `lin2` over the flattened rows, and `lin3` over (batch, position).
-/
import Idealize.ShloMosaic.PureOps.Ideal
import Idealize.ShloMosaic.Lib.ValueIdx

noncomputable section

namespace Cert.Spec

open Idealize.ShloMosaic Idealize.ShloMosaic.ValueIdx

/-- The dequantized weight at channel `o` and feature `i`: the signed code minus the channel's zero point, times the
    channel's scale. The zero points and scales are columns, one entry per channel. -/
def wgt (q : IVec ⟨2, ![11008, 4096]⟩ 32) (sc zp : FVec Ideal ⟨2, ![11008, 1]⟩ .f32) (o : Fin 11008) (i : Fin 4096) : EReal :=
  (FloatOps.sitofp (F := Ideal) .f32 (q (ix2 o i)) - zp (ix2 o (0 : Fin 1))) * sc (ix2 o (0 : Fin 1))

/-- The layer over flattened rows: entry `(r, o)` is the inner product of input row `r` with weight row `o`, plus
    the bias of channel `o`. -/
def lin2 (x : FVec Ideal ⟨2, ![8192, 4096]⟩ .f32) (q : IVec ⟨2, ![11008, 4096]⟩ 32)
    (sc zp : FVec Ideal ⟨2, ![11008, 1]⟩ .f32) (b : FVec Ideal ⟨1, ![11008]⟩ .f32) :
    FVec Ideal ⟨2, ![8192, 11008]⟩ .f32 :=
  fun j => (∑ i : Fin 4096, x (ix2 (j 0) i) * wgt q sc zp (j 1) i) + b (ix1 (j 1))

/-- The layer over (batch, position): entry `(b, s, o)` is the inner product of the input's row at `(b, s)` with weight
    row `o`, plus the bias of channel `o`. -/
def lin3 (x : FVec Ideal ⟨3, ![4, 2048, 4096]⟩ .f32) (q : IVec ⟨2, ![11008, 4096]⟩ 32)
    (sc zp : FVec Ideal ⟨2, ![11008, 1]⟩ .f32) (b : FVec Ideal ⟨1, ![11008]⟩ .f32) :
    FVec Ideal ⟨3, ![4, 2048, 11008]⟩ .f32 :=
  fun j => (∑ i : Fin 4096, x (ix3 (j 0) (j 1) i) * wgt q sc zp (j 2) i) + b (ix1 (j 2))

end Cert.Spec

end
-- ==== Proof.RefValue.lean ====
/-
  The reference's result is the layer `lin3`.

  The reference converts the codes to reals, subtracts the zero-point column broadcast along each row, multiplies by the
  scale column broadcast along each row, contracts the input's last axis with the weight's last axis, and adds the bias
  broadcast over batch and position. Read at an index (b, s, o) each of these steps touches one entry of each operand,
  and the contraction is the sum over the shared axis: together they are `lin3` at (b, s, o).
-/
import proofs.«148385_j81638738362813_1_alg».proof.Proof.Gen.ReferenceIdeal.Read
import proofs.«148385_j81638738362813_1_alg».proof.Proof.Spec

noncomputable section

namespace Cert.RefValue

open Idealize.ShloMosaic Idealize.ShloMosaic.ValueIdx Cert.ReferenceIdeal Cert.ReferenceIdeal.Read

/-- The reference's last stage, as a function of the five arguments, is the layer over (batch, position). -/
theorem ref_eq (x0 : FVec Ideal S4x2048x4096 .f32) (x1 : IVec S11008x4096 32) (x2 x3 : FVec Ideal S11008x1 .f32)
    (x4 : FVec Ideal S11008 .f32) :
    val_main_v8 (F := Ideal) x0 x1 x2 x3 x4 = Cert.Spec.lin3 x0 x1 x2 x3 x4 := by
  funext j
  obtain ⟨b, s, o, rfl⟩ : ∃ (b : Fin 4) (s : Fin 2048) (o : Fin 11008), j = ix3 b s o := ⟨j 0, j 1, j 2, eq_ix3 j⟩
  -- the composed index functions, read at (b, s, o) and a contraction index k, are the plain coordinate indices
  have el : ∀ k : Fin 4096, lidx_main_v5 (ix3 b s o) k = ix3 b s k := fun k => funext fun a => Fin.ext (by
    match a with
    | ⟨0, _⟩ => rfl
    | ⟨1, _⟩ => rfl
    | ⟨2, _⟩ => rfl)
  have er : ∀ k : Fin 4096, ridx_main_v5 (ix3 b s o) k = ix2 o k := fun k => funext fun a => Fin.ext (by
    match a with
    | ⟨0, _⟩ => rfl
    | ⟨1, _⟩ => rfl)
  have ez : ∀ k : Fin 4096, idx_main_v1 (ix2 o k) = ix2 o (0 : Fin 1) := fun k => funext fun a => Fin.ext (by
    match a with
    | ⟨0, _⟩ => rfl
    | ⟨1, _⟩ => rfl)
  have es : ∀ k : Fin 4096, idx_main_v3 (ix2 o k) = ix2 o (0 : Fin 1) := fun k => funext fun a => Fin.ext (by
    match a with
    | ⟨0, _⟩ => rfl
    | ⟨1, _⟩ => rfl)
  have eb : idx_main_v6 (idx_main_v7 (ix3 b s o)) = ix1 o := funext fun a => Fin.ext (by
    match a with
    | ⟨0, _⟩ => rfl)
  -- the outer sum and the bias
  rw [val_main_v8_apply, val_main_v5_apply, val_main_v7_apply, val_main_v6_apply, eb]
  refine congrArg (· + x4 (ix1 o)) (Finset.sum_congr rfl fun k _ => ?_)
  -- one term of the contraction: the input entry times the dequantized weight entry
  rw [el k, er k]
  refine congrArg (x0 (ix3 b s k) * ·) ?_
  have h1 := val_main_v1_apply (F := Ideal) x3 (ix2 o k)
  have h3 := val_main_v3_apply (F := Ideal) x2 (ix2 o k)
  rw [ez k] at h1
  rw [es k] at h3
  show (FloatOps.sitofp (F := Ideal) .f32 (x1 (ix2 o k)) - val_main_v1 (F := Ideal) x3 (ix2 o k))
      * val_main_v3 (F := Ideal) x2 (ix2 o k) = _
  rw [h1, h3]
  rfl

end Cert.RefValue

end
-- ==== Proof.BlockIdx.lean ====
/-
  The block indices of the grid's points.

  The grid has 16 × 43 points, taken row block by row block: point number 43·a + b is (a, b). At that point the input's
  row block is a, the channel block of the codes, scales, zero points and biases is b, and the output's block is (a, b).
  These are finitely many facts about the printed index maps, checked point by point.
-/
import proofs.«148385_j81638738362813_1_alg».proof.Proof.Gen.KernelIdeal.Frame

noncomputable section

open Idealize.ShloMosaic

namespace Cert.Blocks

open Cert.KernelIdeal Cert.KernelIdeal.Gen

/-- The block indices at a point: the input's row block is the output's row block; the codes', scales', zero points' and
    biases' channel block is the output's channel block; every other block index is zero; and the output's block indices
    stay below 16 and 43. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 1) = win0_5.index t (1 : Fin 2)
    ∧ win0_5.index t (0 : Fin 2) ≤ 15 ∧ win0_5.index t (1 : Fin 2) ≤ 42 :=
  (by decide +kernel : ∀ t : Fin grid0.N, _)

/-- Point number 43·a + b is the point whose output block is (a, b). -/
theorem idx_at : ∀ (a : Fin 16) (b : Fin 43), ∃ h : a.val * 43 + b.val < grid0.N,
    win0_5.index ⟨a.val * 43 + b.val, h⟩ (0 : Fin 2) = a.val ∧ win0_5.index ⟨a.val * 43 + b.val, h⟩ (1 : Fin 2) = b.val :=
  by decide +kernel

end Cert.Blocks

end
-- ==== Proof.BlockRows.lean ====
/-
  Each block a grid point loads, as rows of the array it is cut from.

  At a point whose output block is (a, b): row p of the loaded input block is row 512·a + p of the flattened input; row q
  of the loaded code block, and entry q of the loaded scale, zero-point and bias blocks, belong to channel 256·b + q.
  A block's element sits in its array, on each axis, at block index · block size + its coordinate inside the block.
-/
import proofs.«148385_j81638738362813_1_alg».proof.Proof.Gen.KernelIdeal.Frame
import proofs.«148385_j81638738362813_1_alg».proof.Proof.BlockIdx
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen

variable (m : (ℓ : Loc nD τ sig) → Buf (Elt Ideal) ℓ)

/-- Row p of the input block at a point is row (row block · 512 + p) of the flattened input. -/
theorem iblk0_apply (c : Dev nD) (t : Fin cfg0.N) (p : Fin 512) (i : Fin 4096) (r : Fin 8192)
    (hr : r.val = win0_5.index t (0 : Fin 2) * 512 + p.val) :
    (iblk m c 0 t : Vec Ideal S512x4096 .f32) (ix2 p i) = (V m c main_v0 : S8192x4096.Idx → Elt Ideal .f32) (ix2 r i) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * i.val = i.val; rw [e1]; omega

/-- Row q of the code block at a point is the codes of channel (channel block · 256 + q). -/
theorem iblk1_apply (c : Dev nD) (t : Fin cfg0.N) (q : Fin 256) (i : Fin 4096) (o : Fin 11008)
    (ho : o.val = win0_5.index t (1 : Fin 2) * 256 + q.val) :
    (iblk m c 1 t : Vec Ideal S256x4096 .i32) (ix2 q i) = (V m c main_arg1 : S11008x4096.Idx → Elt Ideal .i32) (ix2 o i) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * q.val = o.val; rw [e0, ho]; omega
  | ⟨1, _⟩ => show win0_1.index t (1 : Fin 2) * 4096 + 1 * i.val = i.val; rw [e1]; omega

/-- Entry q of the scale block at a point is the scale of channel (channel block · 256 + q). -/
theorem iblk2_apply (c : Dev nD) (t : Fin cfg0.N) (q : Fin 256) (o : Fin 11008)
    (ho : o.val = win0_5.index t (1 : Fin 2) * 256 + q.val) :
    (iblk m c 2 t : Vec Ideal S256x1 .f32) (ix2 q (0 : Fin 1)) = (V m c main_arg2 : S11008x1.Idx → Elt Ideal .f32) (ix2 o (0 : Fin 1)) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * q.val = o.val; rw [e0, ho]; omega
  | ⟨1, _⟩ => show win0_2.index t (1 : Fin 2) * 1 + 1 * 0 = 0; rw [e1]

/-- Entry q of the zero-point block at a point is the zero point of channel (channel block · 256 + q). -/
theorem iblk3_apply (c : Dev nD) (t : Fin cfg0.N) (q : Fin 256) (o : Fin 11008)
    (ho : o.val = win0_5.index t (1 : Fin 2) * 256 + q.val) :
    (iblk m c 3 t : Vec Ideal S256x1 .f32) (ix2 q (0 : Fin 1)) = (V m c main_arg3 : S11008x1.Idx → Elt Ideal .f32) (ix2 o (0 : Fin 1)) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 256 + 1 * q.val = o.val; rw [e0, ho]; omega
  | ⟨1, _⟩ => show win0_3.index t (1 : Fin 2) * 1 + 1 * 0 = 0; rw [e1]

/-- Entry q of the bias block at a point is the bias of channel (channel block · 256 + q). -/
theorem iblk4_apply (c : Dev nD) (t : Fin cfg0.N) (q : Fin 256) (o : Fin 11008)
    (ho : o.val = win0_5.index t (1 : Fin 2) * 256 + q.val) :
    (iblk m c 4 t : Vec Ideal S256 .f32) (ix1 q) = (V m c main_arg4 : S11008.Idx → Elt Ideal .f32) (ix1 o) := by
  obtain ⟨-, -, -, -, -, -, -, -, e0, -⟩ := idx_facts t
  unfold iblk
  rw [View.read_apply]
  show V m c main_arg4 _ = V m c main_arg4 _
  congr 1
  funext a
  apply Fin.ext
  match a with
  | ⟨0, _⟩ => show win0_4.index t (0 : Fin 1) * 256 + 1 * q.val = o.val; rw [e0, ho]; omega

end Cert.Blocks

end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's stored value, read at an entry of the output block.

  The body loads a 512-row block of the input, a 256-row block of the codes with the matching 256 scales, zero points and
  biases, dequantizes the codes row by row, multiplies the input block by the transposed weight block starting from zero,
  and adds the bias row. At entry (p, q) of the block this is the inner product of input row p with dequantized weight
  row q, plus bias q. (The two narrowings of the float format are the identity on the extended reals.)
-/
import proofs.«148385_j81638738362813_1_alg».proof.Proof.Gen.KernelIdeal.Skeleton
import proofs.«148385_j81638738362813_1_alg».proof.Proof.LibMatmulRowsRead
import proofs.«148385_j81638738362813_1_alg».proof.Proof.LibColumnLayout
import Idealize.ShloMosaic.Lib.ValueLayout
import Idealize.ShloMosaic.Lib.Pipeline.Value

noncomputable section

namespace Cert.Payload

open Idealize.ShloMosaic Idealize.ShloMosaic.ValueIdx Cert.KernelIdeal Cert.KernelIdeal.Gen

/-- The stored value at (p, q): row p of the input block against row q of the dequantized weight block, plus bias q. -/
theorem pay_apply (x0 : Vec Ideal S512x4096 .f32) (x1 : Vec Ideal S256x4096 .i32) (x2 x3 : Vec Ideal S256x1 .f32)
    (x4 : Vec Ideal S256 .f32) (p : Fin 512) (q : Fin 256) :
    k0_pay1 (F := Ideal) x0 x1 x2 x3 x4 (ix2 p q)
      = (∑ i : Fin 4096, x0 (ix2 p i)
          * ((FloatOps.sitofp (F := Ideal) .f32 (x1 (ix2 q i)) - x3 (ix2 q (0 : Fin 1))) * x2 (ix2 q (0 : Fin 1))))
        + x4 (ix1 q) := by
  unfold k0_pay1
  refine (addf_apply _ _ (ix2 p q)).trans ?_
  refine congrArg₂ (· + ·) ?_ ?_
  · -- the product from the zero accumulator is the inner product of row p with row q
    refine (matmul_rows_ix2_apply dot_S512x4096_S256x4096_S512x256_1_1_0_0_n_n rfl rfl rfl rfl rfl rfl none _ _ p q).trans ?_
    refine Finset.sum_congr rfl fun d _ => ?_
    refine congrArg₂ (· * ·) ?_ ?_
    · -- the cast to the same shape is the identity, and so is the narrowing
      exact congrFun (shapeCast_self x0 shapeCasts_S512x4096_S512x4096) (ix2 p d)
    · -- (code − zero point) · scale, the two columns read at row q
      refine congrArg₂ (fun a b : Ideal .f32 => a * b) ?_ ?_
      · refine congrArg₂ (fun a b : Ideal .f32 => a - b) rfl ?_
        exact broadcastTo_a1_ab_apply x3 broadcasts_S256x1_S256x4096 q d
      · exact broadcastTo_a1_ab_apply x2 broadcasts_S256x1_S256x4096 q d
  · -- the bias vector as one row, repeated over the 512 rows
    exact (broadcastTo_1b_ab_apply _ broadcasts_S1x256_S512x256 p q).trans
      (shapeCast_a_1a_apply x4 shapeCasts_S256_S1x256 0 q)

end Cert.Payload

end
-- ==== Proof.PayLin.lean ====
/-
  An entry of the body's stored block is an entry of the layer over flattened rows.

  If the 512 input rows the body loaded are rows of the flattened input starting at some row, and the 256 code rows,
  scales, zero points and biases it loaded are those of 256 consecutive channels, then entry (p, q) of what the body stores
  is the layer's entry at (that row + p, that channel + q): the same inner product of the same input row with the same
  dequantized weight row, plus the same bias. Stated with the four row/channel correspondences as hypotheses, so that it
  can be used at any block.
-/
import proofs.«148385_j81638738362813_1_alg».proof.Proof.Payload
import proofs.«148385_j81638738362813_1_alg».proof.Proof.Spec

noncomputable section

namespace Cert.PayLin

open Idealize.ShloMosaic Idealize.ShloMosaic.ValueIdx Cert.KernelIdeal Cert.KernelIdeal.Gen

/-- Entry (p, q) of the stored block is the layer at (r, o) when block row p is array row r and block channel q is
    array channel o, for the input, the codes, the scales, the zero points and the bias. -/
theorem pay_eq_lin2 (X0 : FVec Ideal S8192x4096 .f32) (X1 : IVec S11008x4096 32) (X2 X3 : FVec Ideal S11008x1 .f32)
    (X4 : FVec Ideal S11008 .f32)
    (x0 : Vec Ideal S512x4096 .f32) (x1 : Vec Ideal S256x4096 .i32) (x2 x3 : Vec Ideal S256x1 .f32) (x4 : Vec Ideal S256 .f32)
    (p : Fin 512) (q : Fin 256) (r : Fin 8192) (o : Fin 11008)
    (h0 : ∀ i : Fin 4096, x0 (ix2 p i) = X0 (ix2 r i))
    (h1 : ∀ i : Fin 4096, x1 (ix2 q i) = X1 (ix2 o i))
    (h2 : x2 (ix2 q (0 : Fin 1)) = X2 (ix2 o (0 : Fin 1)))
    (h3 : x3 (ix2 q (0 : Fin 1)) = X3 (ix2 o (0 : Fin 1)))
    (h4 : x4 (ix1 q) = X4 (ix1 o)) :
    k0_pay1 (F := Ideal) x0 x1 x2 x3 x4 (ix2 p q) = Cert.Spec.lin2 X0 X1 X2 X3 X4 (ix2 r o) := by
  refine (Cert.Payload.pay_apply x0 x1 x2 x3 x4 p q).trans ?_
  show _ = (∑ i : Fin 4096, X0 (ix2 r i) * Cert.Spec.wgt X1 X2 X3 o i) + X4 (ix1 o)
  unfold Cert.Spec.wgt
  rw [h2, h3, h4]
  refine congrArg (· + X4 (ix1 o)) (Finset.sum_congr rfl fun i _ => ?_)
  rw [h0 i, h1 i]

end Cert.PayLin

end
-- ==== Proof.Blocks.lean ====
/-
  From the blocks the grid points write back to the whole output array.

  Point (a, b) of the 16 × 43 grid writes the 512 × 256 block of the output at rows 512·a … and channels 256·b … . By the
  entry-wise reading of what the body stores, and with each loaded block read as rows of its array, that block is the
  corresponding block of the layer over flattened rows, evaluated on the arrays as the region finds them. The 16 × 43
  blocks tile the 8192 × 11008 output (8192 = 16 · 512, 11008 = 43 · 256): the index (r, o) lies in the block of point
  (r / 512, o / 256). So after the last point the output array is the layer.
-/
import proofs.«148385_j81638738362813_1_alg».proof.Proof.Gen.KernelIdeal.Frame
import proofs.«148385_j81638738362813_1_alg».proof.Proof.BlockRows
import proofs.«148385_j81638738362813_1_alg».proof.Proof.PayLin
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- Every pair (row block, channel block) is some point's. -/
theorem idx_onto (a : Fin 16) (b : Fin 43) :
    ∃ t : Fin cfg0.N, win0_5.index t (0 : Fin 2) = a.val ∧ win0_5.index t (1 : Fin 2) = b.val :=
  let ⟨h, e⟩ := idx_at a b; ⟨⟨_, h⟩, e⟩

/-- The layer over flattened rows, on the arrays as the region finds them. -/
abbrev layer (c : Dev nD) : Buf (Elt Ideal) ((c : Thread nD τ).loc main_v1) :=
  Cert.Spec.lin2 (V m c main_v0) (V m c main_arg1) (V m c main_arg2) (V m c main_arg3) (V m c main_arg4)

/-- Entry y of what the body stores at point t is the layer at (row block · 512 + y₀, channel block · 256 + y₁). -/
theorem stored_apply (c : Dev nD) (t : Fin cfg0.N) (p : Fin 512) (q : Fin 256) (r : Fin 8192) (o : Fin 11008)
    (hr : r.val = win0_5.index t (0 : Fin 2) * 512 + p.val) (ho : o.val = win0_5.index t (1 : Fin 2) * 256 + q.val) :
    k0_pay1 (F := Ideal) (iblk m c 0 t) (iblk m c 1 t) (iblk m c 2 t) (iblk m c 3 t) (iblk m c 4 t) (ix2 p q)
      = layer m c (ix2 r o) :=
  Cert.PayLin.pay_eq_lin2 (V m c main_v0) (V m c main_arg1) (V m c main_arg2) (V m c main_arg3) (V m c main_arg4)
    (iblk m c 0 t) (iblk m c 1 t) (iblk m c 2 t) (iblk m c 3 t) (iblk m c 4 t) p q r o
    (fun i => iblk0_apply m c t p i r hr)
    (fun i => iblk1_apply m c t q i o ho)
    (iblk2_apply m c t q o ho)
    (iblk3_apply m c t q o ho)
    (iblk4_apply m c t q o ho)

/-- What point t writes back is block t of the layer. -/
theorem flushed_eq (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after0_5]
  unfold out0_5
  rw [View.canon_unit_zero hz2]
  simp only [View.ld_unit_zero (S := S512x4096) hz2, View.ld_unit_zero (S := S256x4096) hz2,
    View.ld_unit_zero (S := S256x1) hz2, View.ld_unit_zero (S := S256) hz1]
  funext y
  obtain ⟨-, -, -, -, -, -, -, -, -, b0, b1⟩ := idx_facts t
  have hp : (y 0).val < 512 := (y 0).isLt
  have hq : (y 1).val < 256 := (y 1).isLt
  have hr : win0_5.index t (0 : Fin 2) * 512 + (y 0).val < 8192 := by omega
  have ho : win0_5.index t (1 : Fin 2) * 256 + (y 1).val < 11008 := by omega
  refine Eq.trans ?_ ((stored_apply m c t ⟨(y 0).val, hp⟩ ⟨(y 1).val, hq⟩ ⟨_, hr⟩ ⟨_, ho⟩ rfl rfl).trans ?_)
  · show k0_pay1 (iblk m c 0 t) (iblk m c 1 t) (iblk m c 2 t) (iblk m c 3 t) (iblk m c 4 t) _ = _
    congr 1
    funext a
    apply Fin.ext
    match a with
    | ⟨0, _⟩ => rfl
    | ⟨1, _⟩ => rfl
  · show layer m c _ = layer m c (((cfg0.win 5).blk t).view.emb y)
    congr 1
    funext a
    apply Fin.ext
    match a with
    | ⟨0, _⟩ => show win0_5.index t (0 : Fin 2) * 512 + (y 0).val = win0_5.index t (0 : Fin 2) * 512 + 1 * (y 0).val; omega
    | ⟨1, _⟩ => show win0_5.index t (1 : Fin 2) * 256 + (y 1).val = win0_5.index t (1 : Fin 2) * 256 + 1 * (y 1).val; omega

/-- An index of the output array is in point t's block iff each coordinate is in the block's range on its axis. -/
theorem mem_blk (t : Fin cfg0.N) (i : S8192x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v1).slice (win0_5.rect t)).set ↔ _
  rw [View.set_slice_whole, Rect.mem_set_unit]
  exact Iff.rfl

/-- Every index (r, o) of the output array is in the block of the point whose row block is r / 512 and whose channel
    block is o / 256. -/
theorem cover (i : S8192x11008.Idx) : ∃ t : Fin cfg0.N, (cfg0.win 5).flush t = true ∧ i ∈ ((cfg0.win 5).blk t).view.set := by
  have hi0 : (i 0).val < 8192 := (i 0).isLt
  have hi1 : (i 1).val < 11008 := (i 1).isLt
  obtain ⟨t, e0, e1⟩ := idx_onto ⟨(i 0).val / 512, by omega⟩ ⟨(i 1).val / 256, by omega⟩
  have q0 : win0_5.index t (0 : Fin 2) = (i 0).val / 512 := e0
  have q1 : win0_5.index t (1 : Fin 2) = (i 1).val / 256 := e1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- After the last point the output array is the layer over flattened rows. -/
theorem final (c : Dev nD) : (dats m 0 c).arrAt 5 cfg0.N = layer m c :=
  (dats m 0 c).arrAt_eq_of_cover 5 (layer m c) (fun t _ => flushed_eq m c t) (cover)

end Cert.Blocks

end
-- ==== Proof.Reshape.lean ====
/-
  Flattening (batch, position) to rows and back, read at an index, and the layer across the two layouts.

  Casting a [4, 2048, n] array to [8192, n] puts entry (b, s, i) at row 2048·b + s, column i; casting [8192, n] to
  [4, 2048, n] is the inverse. So the layer computed over flattened rows and cast back to (batch, position) is the layer
  over (batch, position): `lin3 x = unflatten (lin2 (flatten x))`.
-/
import proofs.«148385_j81638738362813_1_alg».proof.Proof.Spec
import Idealize.ShloMosaic.Lib.Pipeline.Value
import Idealize.ShloMosaic.Lib.ValueLayout

noncomputable section

namespace Cert.Reshape

open Idealize.ShloMosaic Idealize.ShloMosaic.ValueIdx

variable {α : Type}

/-- Row `2048·b + s` of the flattened array is row (b, s) of the original. -/
theorem flat_apply (x : (⟨3, ![4, 2048, 4096]⟩ : Shape).Idx → α)
    (h : (⟨3, ![4, 2048, 4096]⟩ : Shape).ShapeCasts ⟨2, ![8192, 4096]⟩) (b : Fin 4) (s : Fin 2048) (i : Fin 4096)
    (r : Fin 8192) (hr : r.val = 2048 * b.val + s.val) :
    shapeCast ⟨2, ![8192, 4096]⟩ x h (ix2 r i) = x (ix3 b s i) :=
  shapeCast_apply x h _ _ (by
    rw [Shape.rowMajor_val_three, Shape.rowMajor_val_two]
    show (b.val * 2048 + s.val) * 4096 + i.val = r.val * 4096 + i.val
    rw [hr, Nat.mul_comm 2048 b.val])

/-- Entry (b, s, o) of the array cast back to (batch, position) is row `2048·b + s` of the flat one. -/
theorem unflat_apply (y : (⟨2, ![8192, 11008]⟩ : Shape).Idx → α)
    (h : (⟨2, ![8192, 11008]⟩ : Shape).ShapeCasts ⟨3, ![4, 2048, 11008]⟩) (b : Fin 4) (s : Fin 2048) (o : Fin 11008)
    (r : Fin 8192) (hr : r.val = 2048 * b.val + s.val) :
    shapeCast ⟨3, ![4, 2048, 11008]⟩ y h (ix3 b s o) = y (ix2 r o) :=
  shapeCast_apply y h _ _ (by
    rw [Shape.rowMajor_val_three, Shape.rowMajor_val_two]
    show r.val * 11008 + o.val = (b.val * 2048 + s.val) * 11008 + o.val
    rw [hr, Nat.mul_comm 2048 b.val])

/-- The layer over flattened rows, cast back to (batch, position), is the layer over (batch, position). -/
theorem unflat_lin2_flat (x : FVec Ideal ⟨3, ![4, 2048, 4096]⟩ .f32) (q : IVec ⟨2, ![11008, 4096]⟩ 32)
    (sc zp : FVec Ideal ⟨2, ![11008, 1]⟩ .f32) (bias : FVec Ideal ⟨1, ![11008]⟩ .f32)
    (h1 : (⟨3, ![4, 2048, 4096]⟩ : Shape).ShapeCasts ⟨2, ![8192, 4096]⟩)
    (h2 : (⟨2, ![8192, 11008]⟩ : Shape).ShapeCasts ⟨3, ![4, 2048, 11008]⟩) :
    shapeCast ⟨3, ![4, 2048, 11008]⟩ (Cert.Spec.lin2 (shapeCast ⟨2, ![8192, 4096]⟩ x h1) q sc zp bias) h2
      = Cert.Spec.lin3 x q sc zp bias := by
  funext j
  obtain ⟨b, s, o, rfl⟩ : ∃ (b : Fin 4) (s : Fin 2048) (o : Fin 11008), j = ix3 b s o := ⟨j 0, j 1, j 2, eq_ix3 j⟩
  have hb := b.isLt
  have hs := s.isLt
  -- the row of the flat array that holds (b, s)
  have hlt : 2048 * b.val + s.val < 8192 := by omega
  refine (unflat_apply _ h2 b s o ⟨2048 * b.val + s.val, hlt⟩ rfl).trans ?_
  -- both sides are now an inner product plus the bias of channel `o`; the inner products agree term by term
  show (∑ i : Fin 4096, shapeCast ⟨2, ![8192, 4096]⟩ x h1 (ix2 ⟨2048 * b.val + s.val, hlt⟩ i) * Cert.Spec.wgt q sc zp o i)
        + bias (ix1 o)
      = (∑ i : Fin 4096, x (ix3 b s i) * Cert.Spec.wgt q sc zp o i) + bias (ix1 o)
  refine congrArg (· + bias (ix1 o)) (Finset.sum_congr rfl fun i _ => ?_)
  exact congrArg (· * Cert.Spec.wgt q sc zp o i) (flat_apply x h1 b s i ⟨2048 * b.val + s.val, hlt⟩ rfl)

end Cert.Reshape

end
-- ==== Proof.Tail.lean ====
/-
  The kernel's whole program, read: its result is the layer over (batch, position) of its arguments.

  Before the region the program flattens the input's (batch, position) into rows; the region fills the flat output with
  the layer over flattened rows of the arrays it finds (the flattened input and the four other arguments, untouched);
  after the region the program casts the flat output back to (batch, position). Flatten, the layer over rows, unflatten
  is the layer over (batch, position). The run itself — every execution ends, nothing faults, the arguments end as they
  began — is the generated frame run; here its post is read at the result.
-/
import proofs.«148385_j81638738362813_1_alg».proof.Proof.Gen.KernelIdeal.Frame
import proofs.«148385_j81638738362813_1_alg».proof.Proof.Blocks
import proofs.«148385_j81638738362813_1_alg».proof.Proof.Reshape
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen

variable (m : (ℓ : Loc nD τ sig) → Buf (Elt Ideal) ℓ)

variable (ρ : Dev nD → PrngReg)

/-- The flat input the region finds is the input argument with (batch, position) flattened into rows. -/
theorem V_main_v0 (c : Dev nD) :
    (V m c main_v0 : S8192x4096.Idx → Elt Ideal .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- What the program's last line leaves in the result: the region's output array, cast back to (batch, position). -/
theorem tail_eq (c : Dev nD) :
    (Pipeline.afterTail₀ cfgs (dats m) 0 (V0 m) [hostOps1] c main_v2 : S4x2048x11008.Idx → Elt Ideal .f32)
      = shapeCast S4x2048x11008 ((dats m 0 c).arrAt 5 cfg0.N) shapeCasts_S8192x11008_S4x2048x11008 := by
  unfold Pipeline.afterTail₀
  show StableHlo.after hostOps1 _ (Proc.devRef .tc main_v2) = _
  after_results
  have hw : Pipeline.withArrays spec0 c (V0 m c) (fun w => (dats m 0 c).arrAt w cfg0.N) (Proc.devRef .tc main_v1)
      = (dats m 0 c).arrAt 5 cfg0.N :=
    Pipeline.withArrays_arr spec0 launch0.win.arr_inj c (V0 m c) (fun w => (dats m 0 c).arrAt w cfg0.N) 5
  funext i
  exact congrArg (fun A => shapeCast S4x2048x11008 A shapeCasts_S8192x11008_S4x2048x11008 i) hw

/-- The result, as a function of the five arguments: the layer over (batch, position). -/
theorem result_eq (c : Dev nD) :
    (Pipeline.afterTail₀ cfgs (dats m) 0 (V0 m) [hostOps1] c main_v2 : S4x2048x11008.Idx → Elt Ideal .f32)
      = Cert.Spec.lin3 (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, final]
  show shapeCast S4x2048x11008 (Cert.Spec.lin2 (V m c main_v0) (V m c main_arg1) (V m c main_arg2) (V m c main_arg3) (V m c main_arg4)) _ = _
  rw [V_main_v0, V_main_arg1, V_main_arg2, V_main_arg3, V_main_arg4]
  exact Cert.Reshape.unflat_lin2_flat _ _ _ _ _ _ _

/-- The kernel's run: every execution ends without a fault, with the result at the layer over (batch, position) of the
    arguments and the arguments unchanged. -/
theorem run : θ_run defs (onTc (τ := τ) (main (F := Ideal))) ⟨m, fun _ => 0, ρ⟩ fun r => ∀ c : Dev nD,
      r.2.mem ((c : Thread nD τ).loc main_v2) = Cert.Spec.lin3 (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Blocks

end
-- ==== Proof.lean ====
/-
  A linear layer with integer-coded weights: the kernel against its reference, on the extended reals.

  Both programs compute, for every batch b, position s and output channel o,
      y (b, s, o) = ∑ i, x (b, s, i) · ((code (o, i) − zp o) · scale o) + bias o ,
  the codes read as signed integers. The reference does it in one pass over the whole arrays: it dequantizes the weight,
  contracts the input's last axis with the weight's last axis, and adds the bias. The kernel flattens (batch, position)
  into 8192 rows, tiles the 8192 × 11008 output into 16 × 43 blocks of 512 × 256, computes each block from 512 input
  rows and 256 dequantized weight rows by one matrix product started from zero (its operands narrowed to a shorter
  float format, which on the extended reals changes nothing), adds the bias row, and casts the result back to
  (batch, position).

  The two results are equal entry by entry: each is the same sum, over the same index in the same order, of the same
  products, plus the same bias; no law of arithmetic beyond that is used, so the inputs' finiteness is never needed.
  The modules: Spec (the function, over rows and over (batch, position)), RefValue (the reference is it), Payload and
  PayLin (an entry of a stored block is an entry of it), BlockIdx, BlockRows and Blocks (the blocks tile the output
  array), Reshape (flatten, the layer over rows, unflatten), Tail (the kernel's program read end to end). The three
  runs — termination, no fault, arguments unchanged — are the generated frames and the generated run of the reference;
  the idealized kernel is the kernel's own text read on the extended reals, so there is nothing to preserve.
-/
import proofs.«148385_j81638738362813_1_alg».proof.Defs
import proofs.«148385_j81638738362813_1_alg».proof.Proof.Gen.Kernel
import proofs.«148385_j81638738362813_1_alg».proof.Proof.Gen.Kernel.Skeleton
import proofs.«148385_j81638738362813_1_alg».proof.Proof.Gen.Kernel.Launch
import proofs.«148385_j81638738362813_1_alg».proof.Proof.Gen.Kernel.Points
import proofs.«148385_j81638738362813_1_alg».proof.Proof.Gen.Kernel.Frame
import proofs.«148385_j81638738362813_1_alg».proof.Proof.Gen.KernelIdeal
import proofs.«148385_j81638738362813_1_alg».proof.Proof.Gen.KernelIdeal.Skeleton
import proofs.«148385_j81638738362813_1_alg».proof.Proof.Gen.KernelIdeal.Launch
import proofs.«148385_j81638738362813_1_alg».proof.Proof.Gen.KernelIdeal.Points
import proofs.«148385_j81638738362813_1_alg».proof.Proof.Gen.KernelIdeal.Frame
import proofs.«148385_j81638738362813_1_alg».proof.Proof.Gen.ReferenceIdeal
import proofs.«148385_j81638738362813_1_alg».proof.Proof.Gen.Pre_finite_inputs
import proofs.«148385_j81638738362813_1_alg».proof.Proof.Gen.ReferenceIdeal.Run
import proofs.«148385_j81638738362813_1_alg».proof.Proof.Gen.ReferenceIdeal.Read
import proofs.«148385_j81638738362813_1_alg».proof.Proof.RefValue
import proofs.«148385_j81638738362813_1_alg».proof.Proof.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- Both programs end with the layer over (batch, position) of the arguments in their result, and the arguments agree. -/
theorem algebraic : Cert.algebraic_KernelIdeal_ReferenceIdeal := by
  intro m ρ m' ρ' _ hagree
  refine ⟨fun c => Cert.Spec.lin3 (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
